-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S2048 : Shape := ⟨1, ![2048]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x4096x1024 .f32) (main_arg1 : FVec F S8x4096x1024 .f32) (main_arg2 : FVec F S2048 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x4096x1024 : Shape := ⟨3, ![8, 4096, 1024]⟩
abbrev S2048 : Shape := ⟨1, ![2048]⟩
abbrev S32768x1024 : Shape := ⟨2, ![32768, 1024]⟩
abbrev S1024 : Shape := ⟨1, ![1024]⟩
abbrev S512x1024 : Shape := ⟨2, ![512, 1024]⟩
abbrev S1x1024 : Shape := ⟨2, ![1, 1024]⟩
abbrev S512x16x64 : Shape := ⟨3, ![512, 16, 64]⟩
abbrev S512x16 : Shape := ⟨2, ![512, 16]⟩
abbrev S512x16x1 : Shape := ⟨3, ![512, 16, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2048, .f32⟩
  | .hbm, ⟨3, _⟩ => ⟨S32768x1024, .f32⟩
  | .hbm, ⟨4, _⟩ => ⟨S32768x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S8x4096x1024, .f32⟩
  | .hbm, ⟨10, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024, .f32⟩
  | .local _ .vmem, ⟨5, _⟩ => ⟨S1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x1024_S32768x1024 : S8x4096x1024.ShapeCasts S32768x1024
  slices_S2048_S1024_0 : S2048.Slices ![0] S1024
  slices_S2048_S1024_1024 : S2048.Slices ![1024] S1024
  inb_S1024_S1024_0 : ∀ a, (![0] : Fin 1 → Nat) a + S1024.size a ≤ S1024.size a
  h_S1024 : 0 < S1024.numel
  shapeCasts_S1024_S1024 : S1024.ShapeCasts S1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024_S1x1024 : S1024.ShapeCasts S1x1024
  broadcasts_S1x1024_S512x1024 : S1x1024.Broadcasts S512x1024
  shapeCasts_S512x1024_S512x16x64 : S512x1024.ShapeCasts S512x16x64
  reduces_S512x16x64_S512x16 : S512x16x64.Reduces [2] S512x16
  shapeCasts_S512x16_S512x16x1 : S512x16.ShapeCasts S512x16x1
  broadcasts_S512x16x1_S512x16x64 : S512x16x1.Broadcasts S512x16x64
  shapeCasts_S512x16x64_S512x1024 : S512x16x64.ShapeCasts S512x1024
  shapeCasts_S32768x1024_S8x4096x1024 : S32768x1024.ShapeCasts S8x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S32768x1024.size a
  hwx0_4 : ∀ i : grid0.Coords, EltTy.bits .f32 = 32 ∨ (Rect.block (s := S32768x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S2048 : Shape := ⟨1, ![2048]⟩
abbrev S1024 : Shape := ⟨1, ![1024]⟩
abbrev S1x1x1024 : Shape := ⟨3, ![1, 1, 1024]⟩
abbrev S8x4096x16x64 : Shape := ⟨4, ![8, 4096, 16, 64]⟩
abbrev S_ : Shape := ⟨0, ![]⟩
abbrev S8x4096x16 : Shape := ⟨3, ![8, 4096, 16]⟩
abbrev S8x4096x16x1 : Shape := ⟨4, ![8, 4096, 16, 1]⟩

abbrev nBuf : Space → Nat
  | .hbm => 125
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2048, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S8x4096x1024, .f32⟩
  | .hbm, ⟨7, _⟩ => ⟨S8x4096x1024, .f32⟩
  | .hbm, ⟨8, _⟩ => ⟨S1x1x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x16x64, .f32⟩
  | .hbm, ⟨13, _⟩ => ⟨S_, .f32⟩
  | .hbm, ⟨14, _⟩ => ⟨S8x4096x16, .f32⟩
  | .hbm, ⟨15, _⟩ => ⟨S_, .f32⟩
  | .hbm, ⟨16, _⟩ => ⟨S8x4096x16, .f32⟩
  | .hbm, ⟨17, _⟩ => ⟨S8x4096x16, .f32⟩
  | .hbm, ⟨18, _⟩ => ⟨S8x4096x16x1, .f32⟩
  | .hbm, ⟨19, _⟩ => ⟨S8x4096x16x64, .f32⟩
  | .hbm, ⟨20, _⟩ => ⟨S8x4096x16x64, .f32⟩
  | .hbm, ⟨21, _⟩ => ⟨S8x4096x16x64, .f32⟩
  | .hbm, ⟨22, _⟩ => ⟨S_, .f32⟩
  | .hbm, ⟨23, _⟩ => ⟨S8x4096x16, .f32⟩
  | .hbm, ⟨24, _⟩ => ⟨S8x4096x16x1, .f32⟩
  | .hbm, ⟨25, _⟩ => ⟨S8x4096x16x64, .f32⟩
  | .hbm, ⟨26, _⟩ => ⟨S8x4096x16x64, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x16x64, .f32⟩
  | .hbm, ⟨43, _⟩ => ⟨S_, .f32⟩
  | .hbm, ⟨44, _⟩ => ⟨S8x4096x16, .f32⟩
  | .hbm, ⟨45, _⟩ => ⟨S_, .f32⟩
  | .hbm, ⟨46, _⟩ => ⟨S8x4096x16, .f32⟩
  | .hbm, ⟨47, _⟩ => ⟨S8x4096x16, .f32⟩
  | .hbm, ⟨48, _⟩ => ⟨S8x4096x16x1, .f32⟩
  | .hbm, ⟨49, _⟩ => ⟨S8x4096x16x64, .f32⟩
  | .hbm, ⟨50, _⟩ => ⟨S8x4096x16x64, .f32⟩
  | .hbm, ⟨51, _⟩ => ⟨S8x4096x16x64, .f32⟩
  | .hbm, ⟨52, _⟩ => ⟨S_, .f32⟩
  | .hbm, ⟨53, _⟩ => ⟨S8x4096x16, .f32⟩
  | .hbm, ⟨54, _⟩ => ⟨S8x4096x16x1, .f32⟩
  | .hbm, ⟨55, _⟩ => ⟨S8x4096x16x64, .f32⟩
  | .hbm, ⟨56, _⟩ => ⟨S8x4096x16x64, .f32⟩
  | .hbm, ⟨57, _⟩ => ⟨S8x4096x1024, .f32⟩
  | .hbm, ⟨58, _⟩ => ⟨S_, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x16x64, .f32⟩
  | .hbm, ⟨73, _⟩ => ⟨S_, .f32⟩
  | .hbm, ⟨74, _⟩ => ⟨S8x4096x16, .f32⟩
  | .hbm, ⟨75, _⟩ => ⟨S_, .f32⟩
  | .hbm, ⟨76, _⟩ => ⟨S8x4096x16, .f32⟩
  | .hbm, ⟨77, _⟩ => ⟨S8x4096x16, .f32⟩
  | .hbm, ⟨78, _⟩ => ⟨S8x4096x16x1, .f32⟩
  | .hbm, ⟨79, _⟩ => ⟨S8x4096x16x64, .f32⟩
  | .hbm, ⟨80, _⟩ => ⟨S8x4096x16x64, .f32⟩
  | .hbm, ⟨81, _⟩ => ⟨S8x4096x16x64, .f32⟩
  | .hbm, ⟨82, _⟩ => ⟨S_, .f32⟩
  | .hbm, ⟨83, _⟩ => ⟨S8x4096x16, .f32⟩
  | .hbm, ⟨84, _⟩ => ⟨S8x4096x16x1, .f32⟩
  | .hbm, ⟨85, _⟩ => ⟨S8x4096x16x64, .f32⟩
  | .hbm, ⟨86, _⟩ => ⟨S8x4096x16x64, .f32⟩
  | .hbm, ⟨87, _⟩ => ⟨S8x4096x1024, .f32⟩
  | .hbm, ⟨88, _⟩ => ⟨S_, .f32⟩
  | .hbm, ⟨89, _⟩ => ⟨S8x4096x1024, .f32⟩
  | .hbm, ⟨90, _⟩ => ⟨S8x4096x1024, .f32⟩
  | .hbm, ⟨91, _⟩ => ⟨S_, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S1x1x1024, .f32⟩
  | .hbm, ⟨96, _⟩ => ⟨S8x4096x1024, .f32⟩
  | .hbm, ⟨97, _⟩ => ⟨S8x4096x1024, .f32⟩
  | .hbm, ⟨98, _⟩ => ⟨S1x1x1024, .f32⟩
  | .hbm, ⟨99, _⟩ => ⟨S8x4096x1024, .f32⟩
  | .hbm, ⟨100, _⟩ => ⟨S8x4096x1024, .f32⟩
  | .hbm, ⟨101, _⟩ => ⟨S8x4096x1024, .f32⟩
  | .hbm, ⟨102, _⟩ => ⟨S8x4096x16x64, .f32⟩
  | .hbm, ⟨103, _⟩ => ⟨S_, .f32⟩
  | .hbm, ⟨104, _⟩ => ⟨S8x4096x16, .f32⟩
  | .hbm, ⟨105, _⟩ => ⟨S_, .f32⟩
  | .hbm, ⟨106, _⟩ => ⟨S8x4096x16, .f32⟩
  | .hbm, ⟨107, _⟩ => ⟨S8x4096x16, .f32⟩
  | .hbm, ⟨108, _⟩ => ⟨S8x4096x16x1, .f32⟩
  | .hbm, ⟨109, _⟩ => ⟨S8x4096x16x64, .f32⟩
  | .hbm, ⟨110, _⟩ => ⟨S8x4096x16x64, .f32⟩
  | .hbm, ⟨111, _⟩ => ⟨S8x4096x16x64, .f32⟩
  | .hbm, ⟨112, _⟩ => ⟨S_, .f32⟩
  | .hbm, ⟨113, _⟩ => ⟨S8x4096x16, .f32⟩
  | .hbm, ⟨114, _⟩ => ⟨S8x4096x16x1, .f32⟩
  | .hbm, ⟨115, _⟩ => ⟨S8x4096x16x64, .f32⟩
  | .hbm, ⟨116, _⟩ => ⟨S8x4096x16x64, .f32⟩
  | .hbm, ⟨117, _⟩ => ⟨S8x4096x1024, .f32⟩
  | .hbm, ⟨118, _⟩ => ⟨S_, .f32⟩
  | .hbm, ⟨119, _⟩ => ⟨S8x4096x1024, .f32⟩
  | .hbm, ⟨120, _⟩ => ⟨S8x4096x1024, .f32⟩
  | .hbm, ⟨121, _⟩ => ⟨S_, .f32⟩
  | .hbm, ⟨122, _⟩ => ⟨S8x4096x1024, .f32⟩
  | .hbm, ⟨123, _⟩ => ⟨S8x4096x1024, .f32⟩
  | .hbm, ⟨124, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_11 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_12 : Ref sig .tc := ⟨.hbm, 88, rfl⟩
abbrev main_v72 : Ref sig .tc := ⟨.hbm, 89, rfl⟩
abbrev main_v73 : Ref sig .tc := ⟨.hbm, 90, rfl⟩
abbrev main_cst_13 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_14 : Ref sig .tc := ⟨.hbm, 103, rfl⟩
abbrev main_v85 : Ref sig .tc := ⟨.hbm, 104, rfl⟩
abbrev main_cst_15 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_16 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_17 : Ref sig .tc := ⟨.hbm, 118, rfl⟩
abbrev main_v97 : Ref sig .tc := ⟨.hbm, 119, rfl⟩
abbrev main_v98 : Ref sig .tc := ⟨.hbm, 120, rfl⟩
abbrev main_cst_18 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩

abbrev nD : Nat := 1
abbrev τ : Topo := Topo.v7x

variable {F : FTy → Type} [FloatOps F]

class Facts₀ : Prop where
  slices_S2048_S1024_0 : S2048.Slices ![0] S1024
  slices_S2048_S1024_1024 : S2048.Slices ![1024] S1024
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  shapeCasts_S8x4096x1024_S8x4096x16x64 : S8x4096x1024.ShapeCasts S8x4096x16x64
  reducesTo_S8x4096x16x64_S8x4096x16_d3 : S8x4096x16x64.ReducesTo [3] S8x4096x16
  h_S_ : 0 < S_.numel
  bcast_S_S8x4096x16 : S_.BroadcastsInDim S8x4096x16 (![] : Fin 0 → Fin S8x4096x16.rank)
  bcast_S8x4096x16_S8x4096x16x1_0_1_2 : S8x4096x16.BroadcastsInDim S8x4096x16x1 (![0, 1, 2] : Fin 3 → Fin S8x4096x16x1.rank)
  bcast_S8x4096x16x1_S8x4096x16x64_0_1_2_3 : S8x4096x16x1.BroadcastsInDim S8x4096x16x64 (![0, 1, 2, 3] : Fin 4 → Fin S8x4096x16x64.rank)
  shapeCasts_S8x4096x16x64_S8x4096x1024 : S8x4096x16x64.ShapeCasts S8x4096x1024
  bcast_S_S8x4096x1024 : S_.BroadcastsInDim S8x4096x1024 (![] : Fin 0 → Fin S8x4096x1024.rank)

variable [Facts₀]

class Facts : Prop extends Facts₀ where

variable [Facts]
-- ==== Proof.LibKeepdims3.lean ====
/-
  Keep-dimensions layout operations on the LAST axis of a rank-3 array, read at an index, and the normalisation of each
  row (last axis) to unit Euclidean length — at the ideal values.

  * an array [a, b] cast to [a, b, 1] reads, at (i, j, ·), the array at (i, j);
  * an array [a, b, 1] broadcast to [a, b, c] reads, at (i, j, k), the array at (i, j, 0);
  * a sum along the last axis of [a, b, c], at (i, j), is the sum over k of the entry (i, j, k);
  * dividing every entry by the larger of its row's Euclidean norm and a constant ε — as a kernel spells it: square,
    sum, recast, square root, maximum with the constant column, broadcast, divide — reads at (i, j, k) as
    x / max(√(Σ_q x_q²), ε) of the row x = (entry (i, j, q))_q alone.
  With rows indexed (head, position) this is the per-head normalisation of queries and keys in head-major layout.
  Any sizes; nothing is asked of the entries or of ε.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Keepdims3

open Idealize.ShloMosaic Idealize.ShloMosaic.ValueIdx

variable {α : Type} {a b c : ℕ}

/-- An array [a, b] cast to [a, b, 1] reads, at (i, j, u), the array at (i, j). -/
theorem shapeCast_ab_ab1_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array [a, b, 1] broadcast to [a, b, c] reads, at (i, j, k), the array at (i, j, 0). -/
theorem broadcastTo_ab1_abc_apply (v : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum along the last axis: at (i, j), the sum over k of the entry (i, j, k). -/
theorem add_axis2_apply {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => ?_
  exact congrArg src (funext fun d => Fin.ext (by match d with | ⟨0, _⟩ => rfl | ⟨1, _⟩ => rfl | ⟨2, _⟩ => rfl))

/-- A row divided by the larger of its Euclidean norm and ε. -/
def unitRow (x : Fin c → EReal) (eps : EReal) (k : Fin c) : EReal :=
  Ideal.div (x k) (max (Ideal.sqrt (∑ q, x q * x q)) eps)

/-- THE NORMALISED ARRAY read at (i, j, k): the row's entry over the larger of the row's norm and ε. -/
theorem unitRows_apply (x : FVec Ideal ⟨3, ![a, b, c]⟩ .f32)
    (hred : (⟨3, ![a, b, c]⟩ : Shape).Reduces [2] ⟨2, ![a, b]⟩) (hφ : FKind.Formats FTy.f32)
    (hacc : (0x00000000#32 : BitVec FTy.f32.bits) = FKind.add.neutral .f32 hφ)
    (hcast : (⟨2, ![a, b]⟩ : Shape).ShapeCasts ⟨3, ![a, b, 1]⟩)
    (hb : (⟨3, ![a, b, 1]⟩ : Shape).Broadcasts ⟨3, ![a, b, c]⟩) (eps : EReal)
    (i : Fin a) (j : Fin b) (k : Fin c) :
    divf x (broadcastTo ⟨3, ![a, b, c]⟩
        (maximumf (sqrt (shapeCast ⟨3, ![a, b, 1]⟩ (multiReduction .add [2] ⟨2, ![a, b]⟩ (mulf x x) 0x00000000#32 hred hφ hacc) hcast))
          (broadcast ⟨3, ![a, b, 1]⟩ eps)) hb) (ix3 i j k)
      = unitRow (fun q => x (ix3 i j q)) eps k := by
  unfold unitRow
  rw [divf_apply, broadcastTo_ab1_abc_apply, maximumf_apply, broadcast_apply]
  show Ideal.div _ (max (FloatOps.sqrt (shapeCast ⟨3, ![a, b, 1]⟩ (multiReduction .add [2] ⟨2, ![a, b]⟩ (mulf x x) 0x00000000#32 hred hφ hacc) hcast (ix3 i j (0 : Fin 1)))) eps) = _
  rw [shapeCast_ab_ab1_apply, add_axis2_apply]
  simp only [mulf_apply]
  rfl

end Cert.Lib.Keepdims3

end
-- ==== Proof.LibSoftmaxLast.lean ====
/-
  The two halves of a softmax over the LAST axis, read at an entry, at the ideal values — as a KERNEL spells them on a
  rank-3 block [a, b, c] and as the HOST (jax.nn.softmax) spells them on a rank-4 array [A, B, C, D].  Any sizes; nothing
  is asked of the entries.

  * THE SHIFT.  Both programs take each row's maximum from an initial word ι (−∞), then the larger of ι and that, and spread
    the number over the row.  Read at any entry of the row x this is  shiftOf x ι = max(ι, max-fold from ι of x).
  * THE NORMALISATION.  Given the array E of (already exponentiated) entries, both divide each entry by its row's sum,
    the sum taken from a zero word and spread over the row.  Read at entry k of the row this is  E_k / Σ_q E_q.

  A kernel spells the spreading as a cast [a, b] → [a, b, 1] and a broadcast to [a, b, c]; the host as two
  broadcast_in_dim, [A, B, C] → [A, B, C, 1] → [A, B, C, D]; the reductions are a vector multi-reduction on one side and a
  one-operand reduce on the other.  `weight` puts the two halves together: e^(x_k − M) / Σ_q e^(x_q − M).
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«146273_j20358144983216_1_alg».proof.Proof.LibKeepdims3

noncomputable section

namespace Cert.Lib.SoftmaxLast

open Idealize.ShloMosaic Idealize.ShloMosaic.ValueIdx Cert.Lib.Keepdims3

/-- The number subtracted from a row x: the larger of the initial value ι and the row's max-fold from ι. -/
def shiftOf {c : ℕ} (x : Fin c → EReal) (ι : EReal) : EReal := max ι ((Finset.univ : Finset (Fin c)).fold max ι x)

/-- The softmax weight of position k of the row x shifted by M. -/
def weight {c : ℕ} (x : Fin c → EReal) (M : EReal) (k : Fin c) : EReal :=
  Ideal.div (Ideal.exp (x k - M)) (∑ q, Ideal.exp (x q - M))

/-! ## A kernel's spelling, on a rank-3 block -/

section Kernel

variable {a b c : ℕ}

/-- The maximum along the last axis from the accumulator's word: at (i, j), the fold of `max` over k. -/
theorem max_axis2_apply {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  refine (Ideal.multiReduction_maximumf_single src acc h hφ hacc (ix2 i j)).trans ?_
  refine Finset.fold_congr fun k _ => ?_
  exact congrArg src (funext fun d => Fin.ext (by match d with | ⟨0, _⟩ => rfl | ⟨1, _⟩ => rfl | ⟨2, _⟩ => rfl))

variable (hred : (⟨3, ![a, b, c]⟩ : Shape).Reduces [2] ⟨2, ![a, b]⟩) (hφ : FKind.Formats FTy.f32)
  (hcast : (⟨2, ![a, b]⟩ : Shape).ShapeCasts ⟨3, ![a, b, 1]⟩) (hb : (⟨3, ![a, b, 1]⟩ : Shape).Broadcasts ⟨3, ![a, b, c]⟩)

/-- The kernel's array of shifts: each row's `max(ι, max-fold from ι)`, spread over the row. -/
def kShift (ιBits : BitVec FTy.f32.bits) (hacc : ιBits = FKind.maximumf.neutral .f32 hφ) (src : FVec Ideal ⟨3, ![a, b, c]⟩ .f32) :
    FVec Ideal ⟨3, ![a, b, c]⟩ .f32 :=
  broadcastTo ⟨3, ![a, b, c]⟩
    (shapeCast ⟨3, ![a, b, 1]⟩
      (maximumf (broadcast ⟨2, ![a, b]⟩ (Scalar.ofBits (F := Ideal) .f32 ιBits))
        (multiReduction .maximumf [2] ⟨2, ![a, b]⟩ src ιBits hred hφ hacc)) hcast) hb

theorem kShift_apply (ιBits : BitVec FTy.f32.bits) (hacc : ιBits = FKind.maximumf.neutral .f32 hφ)
    (src : FVec Ideal ⟨3, ![a, b, c]⟩ .f32) (i : Fin a) (j : Fin b) (k : Fin c) :
    kShift hred hφ hcast hb ιBits hacc src (ix3 i j k) = shiftOf (fun q => src (ix3 i j q)) (Ideal.ofBits .f32 ιBits) := by
  unfold kShift shiftOf
  rw [broadcastTo_ab1_abc_apply, shapeCast_ab_ab1_apply, maximumf_apply, broadcast_apply, max_axis2_apply]
  rfl

/-- The kernel's normalisation: every entry over its row's sum. -/
def kNorm (zBits : BitVec FTy.f32.bits) (hacc : zBits = FKind.add.neutral .f32 hφ) (E : FVec Ideal ⟨3, ![a, b, c]⟩ .f32) :
    FVec Ideal ⟨3, ![a, b, c]⟩ .f32 :=
  divf E (broadcastTo ⟨3, ![a, b, c]⟩
    (shapeCast ⟨3, ![a, b, 1]⟩ (multiReduction .add [2] ⟨2, ![a, b]⟩ E zBits hred hφ hacc) hcast) hb)

theorem kNorm_apply (zBits : BitVec FTy.f32.bits) (hacc : zBits = FKind.add.neutral .f32 hφ)
    (E : FVec Ideal ⟨3, ![a, b, c]⟩ .f32) (i : Fin a) (j : Fin b) (k : Fin c) :
    kNorm hred hφ hcast hb zBits hacc E (ix3 i j k) = Ideal.div (E (ix3 i j k)) (∑ q : Fin c, E (ix3 i j q)) := by
  unfold kNorm
  rw [divf_apply, broadcastTo_ab1_abc_apply, shapeCast_ab_ab1_apply, add_axis2_apply]

end Kernel

/-! ## The host's spelling, on a rank-4 array -/

section Host

variable {A B C D : ℕ}

/-- The rank-0 shape of a host scalar. -/
abbrev S0 : Shape := ⟨0, ![]⟩

/-- A host scalar broadcast to [A, B, C] reads the scalar everywhere. -/
theorem scalar3_apply (hb0 : (S0).BroadcastsInDim ⟨3, ![A, B, C]⟩ ![]) (bits : BitVec 32) (i : Fin A) (j : Fin B) (k : Fin C) :
    broadcastInDim ⟨3, ![A, B, C]⟩ ![] hb0 (constant (F := Ideal) S0 .f32 bits) (ix3 i j k) = Ideal.ofBits .f32 bits :=
  (broadcastInDim_apply ![] hb0 (constant (F := Ideal) S0 .f32 bits) (ix3 i j k) (fun d => d.elim0) (fun d => d.elim0)).trans rfl

/-- [A, B, C] broadcast to [A, B, C, 1] reads, at (i, j, k, ·), the entry (i, j, k). -/
theorem keep4_apply (hb1 : (⟨3, ![A, B, C]⟩ : Shape).BroadcastsInDim ⟨4, ![A, B, C, 1]⟩ ![0, 1, 2])
    (x : (⟨3, ![A, B, C]⟩ : Shape).Idx → EReal) (i : Fin A) (j : Fin B) (k : Fin C) (u : Fin 1) :
    broadcastInDim ⟨4, ![A, B, C, 1]⟩ ![0, 1, 2] hb1 x (ix4 i j k u) = x (ix3 i j k) := by
  refine broadcastInDim_apply ![0, 1, 2] hb1 x (ix4 i j k u) (ix3 i j k) fun d => ?_
  match d with
  | ⟨0, _⟩ =>
    show i.val = if A = 1 then 0 else i.val
    split
    · have := i.isLt; omega
    · rfl
  | ⟨1, _⟩ =>
    show j.val = if B = 1 then 0 else j.val
    split
    · have := j.isLt; omega
    · rfl
  | ⟨2, _⟩ =>
    show k.val = if C = 1 then 0 else k.val
    split
    · have := k.isLt; omega
    · rfl

/-- [A, B, C, 1] broadcast to [A, B, C, D] reads, at (i, j, k, l), the entry (i, j, k, 0). -/
theorem spread4_apply (hb2 : (⟨4, ![A, B, C, 1]⟩ : Shape).BroadcastsInDim ⟨4, ![A, B, C, D]⟩ ![0, 1, 2, 3])
    (v : (⟨4, ![A, B, C, 1]⟩ : Shape).Idx → EReal) (i : Fin A) (j : Fin B) (k : Fin C) (l : Fin D) :
    broadcastInDim ⟨4, ![A, B, C, D]⟩ ![0, 1, 2, 3] hb2 v (ix4 i j k l) = v (ix4 i j k (0 : Fin 1)) := by
  refine broadcastInDim_apply ![0, 1, 2, 3] hb2 v (ix4 i j k l) (ix4 i j k (0 : Fin 1)) fun d => ?_
  match d with
  | ⟨0, _⟩ =>
    show i.val = if A = 1 then 0 else i.val
    split
    · have := i.isLt; omega
    · rfl
  | ⟨1, _⟩ =>
    show j.val = if B = 1 then 0 else j.val
    split
    · have := j.isLt; omega
    · rfl
  | ⟨2, _⟩ =>
    show k.val = if C = 1 then 0 else k.val
    split
    · have := k.isLt; omega
    · rfl
  | ⟨3, _⟩ => rfl

/-- The host's sum along the last axis from a zero scalar: at (i, j, k), the sum over l. -/
theorem rowSum4_apply (src : FVec Ideal ⟨4, ![A, B, C, D]⟩ .f32) (h' : (⟨4, ![A, B, C, D]⟩ : Shape).ReducesTo [3] ⟨3, ![A, B, C]⟩)
    (hred : (⟨4, ![A, B, C, D]⟩ : Shape).Reduces [3] ⟨3, ![A, B, C]⟩) (hu : 0 < (S0).numel) (i : Fin A) (j : Fin B) (k : Fin C) :
    Host.reduceAdd src (constant (F := Ideal) S0 .f32 0x00000000#32) h' hu (ix3 i j k) = ∑ l : Fin D, src (ix4 i j k l) := by
  show Ideal.hostReduceAdd _ _ _ (ix3 i j k) = _
  rw [Ideal.hostReduceAdd_single h' hred]
  show Ideal.ofBits .f32 0x00000000#32 + _ = _
  rw [Ideal.ofBits_zero_f32, zero_add]
  refine Finset.sum_congr rfl fun l _ => ?_
  exact congrArg src (funext fun d => Fin.ext (by match d with | ⟨0, _⟩ => rfl | ⟨1, _⟩ => rfl | ⟨2, _⟩ => rfl | ⟨3, _⟩ => rfl))

/-- The host's maximum along the last axis from an initial scalar: at (i, j, k), the fold of `max` over l. -/
theorem rowMax4_apply (src : FVec Ideal ⟨4, ![A, B, C, D]⟩ .f32) (h' : (⟨4, ![A, B, C, D]⟩ : Shape).ReducesTo [3] ⟨3, ![A, B, C]⟩)
    (hred : (⟨4, ![A, B, C, D]⟩ : Shape).Reduces [3] ⟨3, ![A, B, C]⟩) (hu : 0 < (S0).numel) (bits : BitVec 32)
    (i : Fin A) (j : Fin B) (k : Fin C) :
    Host.reduce (FloatOps.maximumf (F := Ideal) (φ := .f32)) src (constant (F := Ideal) S0 .f32 bits) h' hu (ix3 i j k)
      = (Finset.univ : Finset (Fin D)).fold max (Ideal.ofBits .f32 bits) (fun l => src (ix4 i j k l)) := by
  refine (Host.reduce_eq_fold_single (FloatOps.maximumf (F := Ideal) (φ := .f32)) src _ h' hred hu (ix3 i j k)).trans ?_
  refine Finset.fold_congr fun l _ => ?_
  exact congrArg src (funext fun d => Fin.ext (by match d with | ⟨0, _⟩ => rfl | ⟨1, _⟩ => rfl | ⟨2, _⟩ => rfl | ⟨3, _⟩ => rfl))

variable (h' : (⟨4, ![A, B, C, D]⟩ : Shape).ReducesTo [3] ⟨3, ![A, B, C]⟩) (hu : 0 < (S0).numel)
  (hb0 : (S0).BroadcastsInDim ⟨3, ![A, B, C]⟩ ![])
  (hb1 : (⟨3, ![A, B, C]⟩ : Shape).BroadcastsInDim ⟨4, ![A, B, C, 1]⟩ ![0, 1, 2])
  (hb2 : (⟨4, ![A, B, C, 1]⟩ : Shape).BroadcastsInDim ⟨4, ![A, B, C, D]⟩ ![0, 1, 2, 3])

/-- The host's array of shifts: each row's `max(ι, max-fold from ι)`, spread over the row. -/
def hShift (ιBits : BitVec 32) (src : FVec Ideal ⟨4, ![A, B, C, D]⟩ .f32) : FVec Ideal ⟨4, ![A, B, C, D]⟩ .f32 :=
  broadcastInDim ⟨4, ![A, B, C, D]⟩ ![0, 1, 2, 3] hb2
    (broadcastInDim ⟨4, ![A, B, C, 1]⟩ ![0, 1, 2] hb1
      (maximumf (broadcastInDim ⟨3, ![A, B, C]⟩ ![] hb0 (constant (F := Ideal) S0 .f32 ιBits))
        (Host.reduce (FloatOps.maximumf (F := Ideal) (φ := .f32)) src (constant (F := Ideal) S0 .f32 ιBits) h' hu)))

theorem hShift_apply (hred : (⟨4, ![A, B, C, D]⟩ : Shape).Reduces [3] ⟨3, ![A, B, C]⟩) (ιBits : BitVec 32)
    (src : FVec Ideal ⟨4, ![A, B, C, D]⟩ .f32) (i : Fin A) (j : Fin B) (k : Fin C) (l : Fin D) :
    hShift h' hu hb0 hb1 hb2 ιBits src (ix4 i j k l) = shiftOf (fun q => src (ix4 i j k q)) (Ideal.ofBits .f32 ιBits) := by
  unfold hShift shiftOf
  rw [spread4_apply, keep4_apply, maximumf_apply, scalar3_apply, rowMax4_apply src h' hred hu]

/-- The host's normalisation: every entry over its row's sum. -/
def hNorm (E : FVec Ideal ⟨4, ![A, B, C, D]⟩ .f32) : FVec Ideal ⟨4, ![A, B, C, D]⟩ .f32 :=
  Host.divf E (broadcastInDim ⟨4, ![A, B, C, D]⟩ ![0, 1, 2, 3] hb2
    (broadcastInDim ⟨4, ![A, B, C, 1]⟩ ![0, 1, 2] hb1
      (Host.reduceAdd E (constant (F := Ideal) S0 .f32 0x00000000#32) h' hu)))

theorem hNorm_apply (hred : (⟨4, ![A, B, C, D]⟩ : Shape).Reduces [3] ⟨3, ![A, B, C]⟩)
    (E : FVec Ideal ⟨4, ![A, B, C, D]⟩ .f32) (i : Fin A) (j : Fin B) (k : Fin C) (l : Fin D) :
    hNorm h' hu hb1 hb2 E (ix4 i j k l) = Ideal.div (E (ix4 i j k l)) (∑ q : Fin D, E (ix4 i j k q)) := by
  unfold hNorm
  show Ideal.div _ _ = _
  rw [spread4_apply, keep4_apply, rowSum4_apply E h' hred hu]

end Host

end Cert.Lib.SoftmaxLast

end
-- ==== Proof.RowSpec.lean ====
/-
  One row of the layer, as mathematics on the extended reals.

  A row has 1024 entries, read as 16 heads of 64 lanes: entry `pos h l` = 64·h + l.  One round of the layer takes
  the pair (x, xa) of a token's row and its cache row, and two weight rows w1, w2:

      p      = x · w1 + xa · w2                                   (entry by entry)
      M_h    = max(−∞, max over the 64 lanes of head h of p)       (the head's shift)
      y_j    = e^(p_j − M_h) / Σ_{l in head h} e^(p_{h,l} − M_h)   (h the head of j: the head's softmax)
      xa'    = κ · xa + γ · y                                      (κ, γ the two f32 blend constants)
      x'     = y.

  The layer is four such rounds.  Nothing is asked of the entries: every operation is the extended reals' own, so the
  definitions make sense at ±∞ too, and both programs are shown to compute exactly these terms.
-/
import Idealize.ShloMosaic.PureOps.Ideal
import Idealize.ShloMosaic.Lib.ValueIdx
import proofs.«146273_j20358144983216_1_alg».proof.Proof.LibSoftmaxLast

noncomputable section

namespace Cert.RowSpec

open Idealize.ShloMosaic Cert.Lib.SoftmaxLast

/-- A row: 1024 extended reals. -/
abbrev Row := Fin 1024 → EReal

/-- Lane `l` of head `h` sits at entry 64·h + l of the row. -/
def pos (h : Fin 16) (l : Fin 64) : Fin 1024 := ⟨h.val * 64 + l.val, by have := h.isLt; have := l.isLt; omega⟩
/-- The head an entry belongs to. -/
def headOf (j : Fin 1024) : Fin 16 := ⟨j.val / 64, by have := j.isLt; omega⟩
/-- The entry's lane inside its head. -/
def laneOf (j : Fin 1024) : Fin 64 := ⟨j.val % 64, by omega⟩

theorem pos_val (h : Fin 16) (l : Fin 64) : (pos h l).val = h.val * 64 + l.val := rfl
theorem headOf_val (j : Fin 1024) : (headOf j).val = j.val / 64 := rfl
theorem laneOf_val (j : Fin 1024) : (laneOf j).val = j.val % 64 := rfl

/-- An entry is the lane of its head. -/
theorem pos_headOf_laneOf (j : Fin 1024) : pos (headOf j) (laneOf j) = j :=
  Fin.ext (by rw [pos_val, headOf_val, laneOf_val]; omega)

/-- The three f32 constants of the layer, as the extended reals their words denote: −∞, and the two blend weights. -/
def negInf : EReal := Ideal.ofBits .f32 0xFF800000#32
def keep : EReal := Ideal.ofBits .f32 0x3F666666#32
def gain : EReal := Ideal.ofBits .f32 0x3DCCCCCD#32

/-- The blended pre-activation of a row. -/
def pre (w1 w2 x xa : Row) : Row := fun j => x j * w1 j + xa j * w2 j

/-- The shift of head `h`: the larger of −∞ and the head's maximum folded from −∞. -/
def shift (p : Row) (h : Fin 16) : EReal := shiftOf (fun l => p (pos h l)) negInf

/-- The softmax of each head of a row, shifted by the head's maximum. -/
def soft (p : Row) : Row := fun j =>
  weight (fun l => p (pos (headOf j) l)) (shift p (headOf j)) (laneOf j)

/-- The cache row after a round. -/
def blend (xa y : Row) : Row := fun j => keep * xa j + gain * y j

/-- One round on a pair (token row, cache row). -/
def round (w1 w2 : Row) (s : Row × Row) : Row × Row :=
  (soft (pre w1 w2 s.1 s.2), blend s.2 (soft (pre w1 w2 s.1 s.2)))

/-- The layer: four rounds. -/
def layer (w1 w2 : Row) (s : Row × Row) : Row × Row :=
  round w1 w2 (round w1 w2 (round w1 w2 (round w1 w2 s)))

/-! ## The layer on the whole arguments

The arguments are the token array and the cache array, one row per (batch, position), and ONE weight vector of 2048
entries whose lower half is w1 and whose upper half is w2.  The two results are the token array and the cache array
after the layer: each row is the layer of that row alone. -/

open Idealize.ShloMosaic.ValueIdx

/-- An array of rows [8, 4096, 1024]; the weight vector [2048]. -/
abbrev Acts := (⟨3, ![8, 4096, 1024]⟩ : Shape).Idx → EReal
abbrev Wts := (⟨1, ![2048]⟩ : Shape).Idx → EReal

/-- Row (b, t) of an array. -/
def rowAt (X : Acts) (b : Fin 8) (t : Fin 4096) : Row := fun j => X (ix3 b t j)

/-- The two halves of the weight vector, as rows. -/
def wLo (W : Wts) : Row := fun j => W (ix1 (⟨j.val, by have := j.isLt; omega⟩ : Fin 2048))
def wHi (W : Wts) : Row := fun j => W (ix1 (⟨1024 + j.val, by have := j.isLt; omega⟩ : Fin 2048))

/-- The first result: the token rows after the layer. -/
def outY (x xa : Acts) (W : Wts) : Acts := fun i =>
  (layer (wLo W) (wHi W) (rowAt x (i 0) (i 1), rowAt xa (i 0) (i 1))).1 (i 2)

/-- The second result: the cache rows after the layer. -/
def outXA (x xa : Acts) (W : Wts) : Acts := fun i =>
  (layer (wLo W) (wHi W) (rowAt x (i 0) (i 1), rowAt xa (i 0) (i 1))).2 (i 2)

/-- The slice [0 : 1024] of the weight vector is its lower half. -/
theorem slice_lo (W : Wts) (h : (⟨1, ![2048]⟩ : Shape).Slices ![0] ⟨1, ![1024]⟩) (j : Fin 1024) :
    extractStridedSlice ⟨1, ![1024]⟩ ![0] W h (ix1 j) = wLo W j :=
  extractStridedSlice_apply ![0] W h (ix1 j) (ix1 (⟨j.val, by have := j.isLt; omega⟩ : Fin 2048)) (fun a => by
    match a with
    | ⟨0, _⟩ => show j.val = 0 + j.val; omega)

/-- The slice [1024 : 2048] of the weight vector is its upper half. -/
theorem slice_hi (W : Wts) (h : (⟨1, ![2048]⟩ : Shape).Slices ![1024] ⟨1, ![1024]⟩) (j : Fin 1024) :
    extractStridedSlice ⟨1, ![1024]⟩ ![1024] W h (ix1 j) = wHi W j :=
  extractStridedSlice_apply ![1024] W h (ix1 j) (ix1 (⟨1024 + j.val, by have := j.isLt; omega⟩ : Fin 2048)) (fun a => by
    match a with
    | ⟨0, _⟩ => show 1024 + j.val = 1024 + j.val; rfl)

end Cert.RowSpec

end
-- ==== Proof.KernelRound.lean ====
/-
  One round of the layer as the kernel computes it on a block of 512 rows, read row by row.

  The kernel holds a block X of token rows and a block XA of cache rows, [512, 1024] each, and the two weight vectors.
  Its round is four whole-block steps:
    * `preBlk`   — X · w1 + XA · w2 with the weights spread down the rows, viewed [512, 16, 64] (row, head, lane);
    * `shiftBlk` — each head's shift, spread over the head's lanes;
    * `softBlk`  — e^(P − M) over each head's sum of it, viewed [512, 1024] again;
    * `updBlk`   — κ · XA + γ · Y.
  Read at row p each is the row specification's step of row p alone (`preBlk_apply` … `xaBlk_apply`): entry
  (p, h, l) of the [512, 16, 64] view is entry (p, 64·h + l) of the [512, 1024] one, because both views list the block
  in the same row-major order.  So the rows of the new pair of blocks are `RowSpec.round` of the rows of the old
  (`rows_step`).
-/
import proofs.«146273_j20358144983216_1_alg».proof.KernelIdeal
import proofs.«146273_j20358144983216_1_alg».proof.Proof.RowSpec
import proofs.«146273_j20358144983216_1_alg».proof.Proof.LibSoftmaxLast
import Idealize.ShloMosaic.PureOps.Ideal.Laws
import Idealize.ShloMosaic.Lib.ValueIdx
import Idealize.ShloMosaic.Lib.ValueLayout
import Idealize.ShloMosaic.Lib.Pipeline.Value

noncomputable section

namespace Cert.KernelRound

open Idealize.ShloMosaic Idealize.ShloMosaic.ValueIdx Cert.KernelIdeal Cert.KernelIdeal.Facts₀ Cert.RowSpec
open Cert.Lib.SoftmaxLast Cert.Lib.Keepdims3

variable [Cert.KernelIdeal.Facts]

/-- A block of 512 rows; its [512, 16, 64] view; a weight vector. -/
abbrev Blk := FVec Ideal S512x1024 .f32
abbrev Hd := FVec Ideal S512x16x64 .f32
abbrev Wt := FVec Ideal S1024 .f32

/-- Row p of a block. -/
def rowOf (X : Blk) (p : Fin 512) : Row := fun j => X (ix2 p j)
/-- A weight vector as a row. -/
def vecRow (w : Wt) : Row := fun j => w (ix1 j)

/-- X · w1 + XA · w2, the weights spread down the rows, viewed by head and lane. -/
def preBlk (w1 w2 : Wt) (X XA : Blk) : Hd :=
  shapeCast S512x16x64
    (addf (mulf X (broadcastTo S512x1024 (shapeCast S1x1024 w1 shapeCasts_S1024_S1x1024) broadcasts_S1x1024_S512x1024))
      (mulf XA (broadcastTo S512x1024 (shapeCast S1x1024 w2 shapeCasts_S1024_S1x1024) broadcasts_S1x1024_S512x1024)))
    shapeCasts_S512x1024_S512x16x64

theorem preBlk_apply (w1 w2 : Wt) (X XA : Blk) (p : Fin 512) (h : Fin 16) (l : Fin 64) :
    preBlk w1 w2 X XA (ix3 p h l) = pre (vecRow w1) (vecRow w2) (rowOf X p) (rowOf XA p) (pos h l) := by
  unfold preBlk
  rw [shapeCast_apply _ _ (ix3 p h l) (ix2 p (pos h l)) (by
      rw [Shape.rowMajor_val_two, Shape.rowMajor_val_three]
      show p.val * 1024 + (h.val * 64 + l.val) = (p.val * 16 + h.val) * 64 + l.val
      omega)]
  rw [addf_apply, mulf_apply, mulf_apply, broadcastTo_1b_ab_apply, broadcastTo_1b_ab_apply, shapeCast_a_1a_apply,
    shapeCast_a_1a_apply]
  rfl

/-- Each head's shift, spread over its lanes. -/
def shiftBlk (P : Hd) : Hd :=
  kShift reduces_S512x16x64_S512x16 (.inl rfl) shapeCasts_S512x16_S512x16x1 broadcasts_S512x16x1_S512x16x64 0xFF800000#32 rfl P

theorem shiftBlk_apply (P : Hd) (p : Fin 512) (h : Fin 16) (l : Fin 64) :
    shiftBlk P (ix3 p h l) = shiftOf (fun q => P (ix3 p h q)) negInf :=
  kShift_apply _ _ _ _ _ _ P p h l

/-- e^(P − M) over its head's sum, viewed as rows of 1024 again. -/
def softBlk (P M : Hd) : Blk :=
  shapeCast S512x1024
    (kNorm reduces_S512x16x64_S512x16 (.inl rfl) shapeCasts_S512x16_S512x16x1 broadcasts_S512x16x1_S512x16x64 0x00000000#32 rfl
      (exp (subf P M)))
    shapeCasts_S512x16x64_S512x1024

theorem softBlk_apply (P M : Hd) (p : Fin 512) (j : Fin 1024) :
    softBlk P M (ix2 p j)
      = Ideal.div (Ideal.exp (P (ix3 p (headOf j) (laneOf j)) - M (ix3 p (headOf j) (laneOf j))))
          (∑ q : Fin 64, Ideal.exp (P (ix3 p (headOf j) q) - M (ix3 p (headOf j) q))) := by
  unfold softBlk
  rw [shapeCast_apply _ _ (ix2 p j) (ix3 p (headOf j) (laneOf j)) (by
      rw [Shape.rowMajor_val_two, Shape.rowMajor_val_three]
      show (p.val * 16 + j.val / 64) * 64 + j.val % 64 = p.val * 1024 + j.val
      omega)]
  exact (kNorm_apply _ _ _ _ _ _ (exp (subf P M)) p (headOf j) (laneOf j)).trans rfl

/-- κ · XA + γ · Y. -/
def updBlk (XA Y : Blk) : Blk :=
  addf (mulf (broadcast S512x1024 (Scalar.ofBits (F := Ideal) .f32 0x3F666666#32)) XA)
    (mulf (broadcast S512x1024 (Scalar.ofBits (F := Ideal) .f32 0x3DCCCCCD#32)) Y)

/-- The new token block and the new cache block of a round. -/
def yBlk (w1 w2 : Wt) (X XA : Blk) : Blk := softBlk (preBlk w1 w2 X XA) (shiftBlk (preBlk w1 w2 X XA))
def xaBlk (w1 w2 : Wt) (X XA : Blk) : Blk := updBlk XA (yBlk w1 w2 X XA)

theorem yBlk_apply (w1 w2 : Wt) (X XA : Blk) (p : Fin 512) (j : Fin 1024) :
    yBlk w1 w2 X XA (ix2 p j) = soft (pre (vecRow w1) (vecRow w2) (rowOf X p) (rowOf XA p)) j := by
  unfold yBlk
  rw [softBlk_apply]
  simp only [shiftBlk_apply, preBlk_apply]
  rfl

theorem xaBlk_apply (w1 w2 : Wt) (X XA : Blk) (p : Fin 512) (j : Fin 1024) :
    xaBlk w1 w2 X XA (ix2 p j)
      = blend (rowOf XA p) (soft (pre (vecRow w1) (vecRow w2) (rowOf X p) (rowOf XA p))) j := by
  unfold xaBlk updBlk
  rw [addf_apply, mulf_apply, mulf_apply, broadcast_apply, broadcast_apply, yBlk_apply]
  rfl

/-- THE ROUND, row by row: the rows of the new blocks are the row specification's round of the rows of the old. -/
theorem rows_step (w1 w2 : Wt) (X XA : Blk) (p : Fin 512) :
    (rowOf (yBlk w1 w2 X XA) p, rowOf (xaBlk w1 w2 X XA) p)
      = round (vecRow w1) (vecRow w2) (rowOf X p, rowOf XA p) :=
  Prod.ext (funext fun j => yBlk_apply w1 w2 X XA p j) (funext fun j => xaBlk_apply w1 w2 X XA p j)

end Cert.KernelRound

end
-- ==== Proof.KernelBody.lean ====
/-
  The kernel body's two stored values as four rounds on the loaded blocks.

  The printed body is one straight line of 144 operations; its generated restatement cuts that line into fifteen
  pieces by position, not by meaning.  Each piece is, by unfolding, one of the four whole-block steps of a round
  (`preBlk`, `shiftBlk`, `softBlk`, `updBlk`) applied to earlier pieces (`pay1_eq` … `pay15_eq`), so the value stored
  to the first output is the token block, and the value stored to the second the cache block, after four rounds
  `step` from the loaded pair (`stored_y`, `stored_xa`); the body's shape casts of a loaded block to its own shape
  change nothing.  Row by row, four rounds of blocks are the row specification's `layer` (`rows_of_four`).
-/
import proofs.«146273_j20358144983216_1_alg».proof.Proof.Gen.KernelIdeal.Skeleton
import proofs.«146273_j20358144983216_1_alg».proof.Proof.KernelRound

noncomputable section

namespace Cert.KernelBody

open Idealize.ShloMosaic Idealize.ShloMosaic.ValueIdx Cert.KernelIdeal Cert.KernelIdeal.Gen Cert.KernelIdeal.Facts₀
open Cert.RowSpec Cert.KernelRound

/-- One round on a pair of blocks (token block, cache block). -/
def step (w1 w2 : Wt) (s : Blk × Blk) : Blk × Blk := (yBlk w1 w2 s.1 s.2, xaBlk w1 w2 s.1 s.2)

/-- Four rounds. -/
def four (w1 w2 : Wt) (s : Blk × Blk) : Blk × Blk := step w1 w2 (step w1 w2 (step w1 w2 (step w1 w2 s)))

theorem rows_of_step (w1 w2 : Wt) (s : Blk × Blk) (p : Fin 512) :
    (rowOf (step w1 w2 s).1 p, rowOf (step w1 w2 s).2 p) = round (vecRow w1) (vecRow w2) (rowOf s.1 p, rowOf s.2 p) :=
  rows_step w1 w2 s.1 s.2 p

/-- Row p of the blocks after four rounds is the layer of row p of the blocks before. -/
theorem rows_of_four (w1 w2 : Wt) (s : Blk × Blk) (p : Fin 512) :
    (rowOf (four w1 w2 s).1 p, rowOf (four w1 w2 s).2 p) = layer (vecRow w1) (vecRow w2) (rowOf s.1 p, rowOf s.2 p) := by
  unfold four layer
  rw [rows_of_step, rows_of_step, rows_of_step, rows_of_step]

/-! ## The pieces of the printed body -/

section Pieces

variable (v0 v2 : Vec Ideal S1024 .f32) (v4 v6 : Vec Ideal S512x1024 .f32)
variable (v1 v3 : FVec Ideal S1024 .f32) (v32 v82 : FVec Ideal S512x1024 .f32) (v40 v45 v90 v95 : FVec Ideal S512x16x64 .f32)

/-- A loaded vector or block cast to its own shape is itself. -/
theorem pay3_eq : k0_pay3 (F := Ideal) v0 = v0 := shapeCast_self v0 _
theorem pay4_eq : k0_pay4 (F := Ideal) v2 = v2 := shapeCast_self v2 _
theorem pay5_eq : k0_pay5 (F := Ideal) v6 = v6 := shapeCast_self v6 _

/-- Round 1: the new token block, the new cache block; round 2's pre-activation and shift. -/
theorem pay6_eq : k0_pay6 (F := Ideal) v0 v2 v4 v6
    = yBlk (k0_pay3 v0) (k0_pay4 v2) (shapeCast S512x1024 v4 (by exact Facts₀.shapeCasts_S512x1024_S512x1024)) (k0_pay5 v6) := rfl
theorem pay7_eq : k0_pay7 (F := Ideal) v0 v2 v4 v6 = updBlk (k0_pay5 v6) (k0_pay6 v0 v2 v4 v6) := rfl
theorem pay8_eq : k0_pay8 (F := Ideal) v0 v2 v4 v6
    = preBlk (k0_pay3 v0) (k0_pay4 v2) (k0_pay6 v0 v2 v4 v6) (k0_pay7 v0 v2 v4 v6) := rfl
theorem pay9_eq : k0_pay9 (F := Ideal) v0 v2 v4 v6 = shiftBlk (k0_pay8 v0 v2 v4 v6) := rfl

/-- Round 2's softmax and cache; round 3 whole; round 4's pre-activation and shift. -/
theorem pay10_eq : k0_pay10 (F := Ideal) v40 v45 = softBlk v40 v45 := rfl
theorem pay11_eq : k0_pay11 (F := Ideal) v32 v40 v45 = updBlk v32 (k0_pay10 v40 v45) := rfl
theorem pay12_eq : k0_pay12 (F := Ideal) v1 v3 v32 v40 v45 = yBlk v1 v3 (k0_pay10 v40 v45) (k0_pay11 v32 v40 v45) := rfl
theorem pay13_eq : k0_pay13 (F := Ideal) v1 v3 v32 v40 v45
    = updBlk (k0_pay11 v32 v40 v45) (k0_pay12 v1 v3 v32 v40 v45) := rfl
theorem pay14_eq : k0_pay14 (F := Ideal) v1 v3 v32 v40 v45
    = preBlk v1 v3 (k0_pay12 v1 v3 v32 v40 v45) (k0_pay13 v1 v3 v32 v40 v45) := rfl
theorem pay15_eq : k0_pay15 (F := Ideal) v1 v3 v32 v40 v45 = shiftBlk (k0_pay14 v1 v3 v32 v40 v45) := rfl

/-- Round 4's softmax and cache: the two stored values. -/
theorem pay1_eq : k0_pay1 (F := Ideal) v90 v95 = softBlk v90 v95 := rfl
theorem pay2_eq : k0_pay2 (F := Ideal) v82 v90 v95 = updBlk v82 (k0_pay1 v90 v95) := rfl

end Pieces

/-! ## The two stored values -/

variable (x0 x1 : Vec Ideal S512x1024 .f32) (x2 x3 : Vec Ideal S1024 .f32)

/-- The value stored to the first output: the token block after four rounds. -/
theorem stored_y :
    k0_pay1 (F := Ideal)
        (k0_pay14 (k0_pay3 x2) (k0_pay4 x3) (k0_pay7 x2 x3 x0 x1) (k0_pay8 x2 x3 x0 x1) (k0_pay9 x2 x3 x0 x1))
        (k0_pay15 (k0_pay3 x2) (k0_pay4 x3) (k0_pay7 x2 x3 x0 x1) (k0_pay8 x2 x3 x0 x1) (k0_pay9 x2 x3 x0 x1))
      = (four x2 x3 (x0, x1)).1 := by
  simp only [pay1_eq, pay15_eq, pay14_eq, pay13_eq, pay12_eq, pay11_eq, pay10_eq, pay9_eq, pay8_eq, pay7_eq, pay6_eq,
    pay5_eq, pay4_eq, pay3_eq, shapeCast_self]
  rfl

/-- The value stored to the second output: the cache block after four rounds. -/
theorem stored_xa :
    k0_pay2 (F := Ideal)
        (k0_pay13 (k0_pay3 x2) (k0_pay4 x3) (k0_pay7 x2 x3 x0 x1) (k0_pay8 x2 x3 x0 x1) (k0_pay9 x2 x3 x0 x1))
        (k0_pay14 (k0_pay3 x2) (k0_pay4 x3) (k0_pay7 x2 x3 x0 x1) (k0_pay8 x2 x3 x0 x1) (k0_pay9 x2 x3 x0 x1))
        (k0_pay15 (k0_pay3 x2) (k0_pay4 x3) (k0_pay7 x2 x3 x0 x1) (k0_pay8 x2 x3 x0 x1) (k0_pay9 x2 x3 x0 x1))
      = (four x2 x3 (x0, x1)).2 := by
  simp only [pay2_eq, pay1_eq, pay15_eq, pay14_eq, pay13_eq, pay12_eq, pay11_eq, pay10_eq, pay9_eq, pay8_eq, pay7_eq,
    pay6_eq, pay5_eq, pay4_eq, pay3_eq, shapeCast_self]
  rfl

end Cert.KernelBody

end
-- ==== Proof.KernelArray.lean ====
/-
  From what one grid point writes back to the kernel's two whole result arrays.

  The region works on the token and cache arrays viewed [32768, 1024] (all 8 · 4096 rows in one list) and on the two
  halves of the weight vector.  Grid point t loads rows 512·t … 512·t + 511 of both arrays and the whole of both weight
  vectors, runs the body, and writes its two result blocks back to the same rows of the two result arrays.  Since the
  body treats every row by itself (KernelBody), what point t writes back is rows 512·t … of ONE whole-array function
  of the region's inputs: `GY` (row r of the result is the first component of the layer of row r of the inputs) and
  `GXA` (the second).  The 64 points' blocks cover every row, so after the region the two arrays ARE `GY` and `GXA`.
-/
import proofs.«146273_j20358144983216_1_alg».proof.Proof.Gen.KernelIdeal.Frame
import proofs.«146273_j20358144983216_1_alg».proof.Proof.KernelBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen Cert.RowSpec Cert.KernelRound Cert.KernelBody

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the 64 points: the four row windows are at block row t, column block 0; the two weight
    windows are always at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- An array of all 32768 rows, and row r of it. -/
abbrev Mat := FVec Ideal S32768x1024 .f32
def rowM (A : Mat) (r : Fin 32768) : Row := fun j => A (ix2 r j)

/-- Row p of point t's block is row 512·t + p of the array. -/
def rowIx (t : Fin cfg0.N) (p : Fin 512) : Fin 32768 :=
  ⟨t.val * 512 + p.val, by have := t.isLt; have hN : cfg0.N = 64 := N_0; have := p.isLt; omega⟩

theorem rowIx_val (t : Fin cfg0.N) (p : Fin 512) : (rowIx t p).val = t.val * 512 + p.val := rfl

/-! ## The input blocks at a point -/

theorem iblk0_apply (c : Dev nD) (t : Fin cfg0.N) (p : Fin 512) (j : Fin 1024) :
    (iblk m c 0 t : Vec Ideal S512x1024 .f32) (ix2 p j) = (V m c main_v0 : Mat) (ix2 (rowIx t p) j) := by
  obtain ⟨e0, e1, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * j.val = j.val; rw [e1]; omega

theorem iblk1_apply (c : Dev nD) (t : Fin cfg0.N) (p : Fin 512) (j : Fin 1024) :
    (iblk m c 1 t : Vec Ideal S512x1024 .f32) (ix2 p j) = (V m c main_v1 : Mat) (ix2 (rowIx t p) j) := by
  obtain ⟨-, -, e0, e1, -⟩ := idx_facts t
  unfold iblk
  rw [View.read_apply]
  show V m c main_v1 _ = V m c main_v1 _
  refine congrArg (V m c main_v1) ?_
  funext a
  apply Fin.ext
  match a with
  | ⟨0, _⟩ => show win0_1.index t (0 : Fin 2) * 512 + 1 * p.val = t.val * 512 + p.val; rw [e0]; omega
  | ⟨1, _⟩ => show win0_1.index t (1 : Fin 2) * 1024 + 1 * j.val = j.val; rw [e1]; omega

theorem iblk2_apply (c : Dev nD) (t : Fin cfg0.N) (j : Fin 1024) :
    (iblk m c 2 t : Vec Ideal S1024 .f32) (ix1 j) = (V m c main_v2 : Wt) (ix1 j) := by
  obtain ⟨-, -, -, -, e0, -⟩ := idx_facts t
  unfold iblk
  rw [View.read_apply]
  show V m c main_v2 _ = V m c main_v2 _
  refine congrArg (V m c main_v2) ?_
  funext a
  apply Fin.ext
  match a with
  | ⟨0, _⟩ => show win0_2.index t (0 : Fin 1) * 1024 + 1 * j.val = j.val; rw [e0]; omega

theorem iblk3_apply (c : Dev nD) (t : Fin cfg0.N) (j : Fin 1024) :
    (iblk m c 3 t : Vec Ideal S1024 .f32) (ix1 j) = (V m c main_v3 : Wt) (ix1 j) := by
  obtain ⟨-, -, -, -, -, e0, -⟩ := idx_facts t
  unfold iblk
  rw [View.read_apply]
  show V m c main_v3 _ = V m c main_v3 _
  refine congrArg (V m c main_v3) ?_
  funext a
  apply Fin.ext
  match a with
  | ⟨0, _⟩ => show win0_3.index t (0 : Fin 1) * 1024 + 1 * j.val = j.val; rw [e0]; omega

/-- The same, as rows. -/
theorem iblk0_row (c : Dev nD) (t : Fin cfg0.N) (p : Fin 512) :
    rowOf (iblk m c 0 t) p = rowM (V m c main_v0) (rowIx t p) := funext fun j => iblk0_apply m c t p j
theorem iblk1_row (c : Dev nD) (t : Fin cfg0.N) (p : Fin 512) :
    rowOf (iblk m c 1 t) p = rowM (V m c main_v1) (rowIx t p) := funext fun j => iblk1_apply m c t p j
theorem iblk2_vec (c : Dev nD) (t : Fin cfg0.N) : vecRow (iblk m c 2 t) = vecRow (V m c main_v2) :=
  funext fun j => iblk2_apply m c t j
theorem iblk3_vec (c : Dev nD) (t : Fin cfg0.N) : vecRow (iblk m c 3 t) = vecRow (V m c main_v3) :=
  funext fun j => iblk3_apply m c t j

/-! ## The two result arrays as whole-array functions of the region's inputs -/

def GY (A0 A1 : Mat) (A2 A3 : Wt) : Mat := fun i =>
  (layer (vecRow A2) (vecRow A3) (rowM A0 (i 0), rowM A1 (i 0))).1 (i 1)
def GXA (A0 A1 : Mat) (A2 A3 : Wt) : Mat := fun i =>
  (layer (vecRow A2) (vecRow A3) (rowM A0 (i 0), rowM A1 (i 0))).2 (i 1)

/-- Rows p of the blocks point t leaves are the layer of row 512·t + p of the region's inputs. -/
theorem rows_at_point (c : Dev nD) (t : Fin cfg0.N) (p : Fin 512) :
    (rowOf (four (iblk m c 2 t) (iblk m c 3 t) (iblk m c 0 t, iblk m c 1 t)).1 p,
      rowOf (four (iblk m c 2 t) (iblk m c 3 t) (iblk m c 0 t, iblk m c 1 t)).2 p)
      = layer (vecRow (V m c main_v2)) (vecRow (V m c main_v3))
          (rowM (V m c main_v0) (rowIx t p), rowM (V m c main_v1) (rowIx t p)) := by
  have h := rows_of_four (iblk m c 2 t) (iblk m c 3 t) (iblk m c 0 t, iblk m c 1 t) p
  dsimp only at h
  rw [iblk2_vec, iblk3_vec, iblk0_row, iblk1_row] at h
  exact h

/-- WHAT POINT t WRITES BACK to the first result array is rows 512·t … of `GY`. -/
theorem flushed4_eq (c : Dev nD) (t : Fin cfg0.N) :
    (dats m 0 c).flushed 4 t
      = ((cfg0.win 4).blk t).view.read (Elt Ideal) (GY (V m c main_v0) (V m c main_v1) (V m c main_v2) (V m c main_v3)) := by
  show (cfg0.win 4).cut (grid0.coords t) ((dats m 0 c).after 4 t) = _
  rw [after0_4]
  unfold out0_4
  rw [View.canon_unit_zero hz2]
  simp only [View.ld_unit_zero (S := S512x1024) hz2, View.ld_unit_zero (S := S1024) hz1]
  rw [stored_y]
  obtain ⟨-, -, -, -, -, -, e0, e1, -⟩ := idx_facts t
  funext y
  obtain ⟨p, j, rfl⟩ : ∃ (p : Fin 512) (j : Fin 1024), y = ix2 p j := ⟨y 0, y 1, eq_ix2 y⟩
  show (four (iblk m c 2 t) (iblk m c 3 t) (iblk m c 0 t, iblk m c 1 t)).1 (ix2 p j)
    = GY (V m c main_v0) (V m c main_v1) (V m c main_v2) (V m c main_v3) (((cfg0.win 4).blk t).view.emb (ix2 p j))
  have he : ((cfg0.win 4).blk t).view.emb (ix2 p j) = ix2 (rowIx t p) j := by
    funext a
    apply Fin.ext
    match a with
    | ⟨0, _⟩ => show win0_4.index t (0 : Fin 2) * 512 + 1 * p.val = t.val * 512 + p.val; rw [e0]; omega
    | ⟨1, _⟩ => show win0_4.index t (1 : Fin 2) * 1024 + 1 * j.val = j.val; rw [e1]; omega
  rw [he]
  exact congrFun (congrArg Prod.fst (rows_at_point m c t p)) j

/-- WHAT POINT t WRITES BACK to the second result array is rows 512·t … of `GXA`. -/
theorem flushed5_eq (c : Dev nD) (t : Fin cfg0.N) :
    (dats m 0 c).flushed 5 t
      = ((cfg0.win 5).blk t).view.read (Elt Ideal) (GXA (V m c main_v0) (V m c main_v1) (V m c main_v2) (V m c main_v3)) := by
  show (cfg0.win 5).cut (grid0.coords t) ((dats m 0 c).after 5 t) = _
  rw [after0_5]
  unfold out0_5
  rw [View.canon_unit_zero hz2]
  simp only [View.ld_unit_zero (S := S512x1024) hz2, View.ld_unit_zero (S := S1024) hz1]
  rw [stored_xa]
  obtain ⟨-, -, -, -, -, -, -, -, e0, e1⟩ := idx_facts t
  funext y
  obtain ⟨p, j, rfl⟩ : ∃ (p : Fin 512) (j : Fin 1024), y = ix2 p j := ⟨y 0, y 1, eq_ix2 y⟩
  show (four (iblk m c 2 t) (iblk m c 3 t) (iblk m c 0 t, iblk m c 1 t)).2 (ix2 p j)
    = GXA (V m c main_v0) (V m c main_v1) (V m c main_v2) (V m c main_v3) (((cfg0.win 5).blk t).view.emb (ix2 p j))
  have he : ((cfg0.win 5).blk t).view.emb (ix2 p j) = ix2 (rowIx t p) j := by
    funext a
    apply Fin.ext
    match a with
    | ⟨0, _⟩ => show win0_5.index t (0 : Fin 2) * 512 + 1 * p.val = t.val * 512 + p.val; rw [e0]; omega
    | ⟨1, _⟩ => show win0_5.index t (1 : Fin 2) * 1024 + 1 * j.val = j.val; rw [e1]; omega
  rw [he]
  exact congrFun (congrArg Prod.snd (rows_at_point m c t p)) j

/-! ## The blocks cover the arrays -/

theorem mem_blk4 (t : Fin cfg0.N) (i : S32768x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v4_0).slice (win0_4.rect t)).set ↔ _
  rw [View.set_slice_whole, Rect.mem_set_unit]
  exact Iff.rfl

theorem mem_blk5 (t : Fin cfg0.N) (i : S32768x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v4_1).slice (win0_5.rect t)).set ↔ _
  rw [View.set_slice_whole, Rect.mem_set_unit]
  exact Iff.rfl

/-- Row r lies in the block of point r / 512. -/
theorem cover4 (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  have hN : cfg0.N = 64 := N_0
  obtain ⟨t, ht⟩ : ∃ t : Fin cfg0.N, t.val = (i 0).val / 512 := ⟨⟨(i 0).val / 512, by omega⟩, rfl⟩
  obtain ⟨-, -, -, -, -, -, e0, e1, -⟩ := idx_facts t
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 1024 ≤ (i 1).val ∧ (i 1).val < win0_4.index t (1 : Fin 2) * 1024 + 1024
    rw [e1]; omega

theorem cover5 (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : cfg0.N = 64 := N_0
  obtain ⟨t, ht⟩ : ∃ t : Fin cfg0.N, t.val = (i 0).val / 512 := ⟨⟨(i 0).val / 512, by omega⟩, rfl⟩
  obtain ⟨-, -, -, -, -, -, -, -, e0, e1⟩ := idx_facts t
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- THE TWO ARRAYS after the region. -/
theorem final4 (c : Dev nD) :
    (dats m 0 c).arrAt 4 cfg0.N = GY (V m c main_v0) (V m c main_v1) (V m c main_v2) (V m c main_v3) :=
  (dats m 0 c).arrAt_eq_of_cover 4 _ (fun t _ => flushed4_eq m c t) cover4

theorem final5 (c : Dev nD) :
    (dats m 0 c).arrAt 5 cfg0.N = GXA (V m c main_v0) (V m c main_v1) (V m c main_v2) (V m c main_v3) :=
  (dats m 0 c).arrAt_eq_of_cover 5 _ (fun t _ => flushed5_eq m c t) cover5

end Cert.KernelArray

end
-- ==== Proof.KernelRun.lean ====
/-
  The kernel program's two results are the specification's `outY` and `outXA` of its three arguments.

  Around the region the program only re-lays data.  Before it: the token and cache arrays [8, 4096, 1024] are viewed
  [32768, 1024] — row 4096·b + t of the view is row (b, t) of the argument — and the weight vector is cut into its two
  halves.  After it: the two result arrays [32768, 1024] are viewed [8, 4096, 1024] again.  The region leaves the
  arrays `GY` and `GXA` of its inputs (KernelArray): row r of each is the layer of row r of the inputs.  Put together,
  row (b, t) of each result is the layer of row (b, t) of the arguments with the two halves of the weight vector:
  `outY`, `outXA`.
-/
import proofs.«146273_j20358144983216_1_alg».proof.Proof.KernelArray

noncomputable section

open Idealize.ShloMosaic Idealize.ShloMosaic.TcCoe Idealize.SL.Sem Idealize.ShloMosaic.ValueIdx
open Idealize.ShloMosaic.Pipeline (Dat)

namespace Cert.KernelRun

open Cert.KernelIdeal Cert.KernelIdeal.Gen Cert.RowSpec Cert.KernelRound Cert.KernelBody Cert.KernelArray

variable (m : (ℓ : Loc nD τ sig) → Buf (Elt Ideal) ℓ) (ρ : Dev nD → PrngReg)

/-! ## The region's inputs, from the arguments -/

theorem V_v0 (c : Dev nD) :
    (V m c main_v0 : Mat)
      = shapeCast S32768x1024 (m ((c : Thread nD τ).loc main_arg0)) Facts₀.shapeCasts_S8x4096x1024_S32768x1024 := by
  show StableHlo.after hostOps0 (fun b => m (c, b)) (Proc.devRef .tc main_v0) = _
  after_results
  rfl

theorem V_v1 (c : Dev nD) :
    (V m c main_v1 : Mat)
      = shapeCast S32768x1024 (m ((c : Thread nD τ).loc main_arg1)) Facts₀.shapeCasts_S8x4096x1024_S32768x1024 := by
  show StableHlo.after hostOps0 (fun b => m (c, b)) (Proc.devRef .tc main_v1) = _
  after_results
  rfl

theorem V_v2 (c : Dev nD) :
    (V m c main_v2 : Wt)
      = extractStridedSlice S1024 ![0] (m ((c : Thread nD τ).loc main_arg2)) Facts₀.slices_S2048_S1024_0 := by
  show StableHlo.after hostOps0 (fun b => m (c, b)) (Proc.devRef .tc main_v2) = _
  after_results

theorem V_v3 (c : Dev nD) :
    (V m c main_v3 : Wt)
      = extractStridedSlice S1024 ![1024] (m ((c : Thread nD τ).loc main_arg2)) Facts₀.slices_S2048_S1024_1024 := by
  show StableHlo.after hostOps0 (fun b => m (c, b)) (Proc.devRef .tc main_v3) = _
  after_results

/-- Row (b, t) of an argument is row 4096·b + t of its [32768, 1024] view. -/
def flatRow (b : Fin 8) (t : Fin 4096) : Fin 32768 :=
  ⟨b.val * 4096 + t.val, by have := b.isLt; have := t.isLt; omega⟩

theorem v0_row (c : Dev nD) (b : Fin 8) (t : Fin 4096) :
    rowM (V m c main_v0) (flatRow b t) = rowAt (m ((c : Thread nD τ).loc main_arg0)) b t := by
  rw [V_v0]
  funext j
  exact shapeCast_apply _ _ (ix2 (flatRow b t) j) (ix3 b t j) (by
    rw [Shape.rowMajor_val_three, Shape.rowMajor_val_two]; rfl)

theorem v1_row (c : Dev nD) (b : Fin 8) (t : Fin 4096) :
    rowM (V m c main_v1) (flatRow b t) = rowAt (m ((c : Thread nD τ).loc main_arg1)) b t := by
  rw [V_v1]
  funext j
  exact shapeCast_apply _ _ (ix2 (flatRow b t) j) (ix3 b t j) (by
    rw [Shape.rowMajor_val_three, Shape.rowMajor_val_two]; rfl)

theorem v2_vec (c : Dev nD) : vecRow (V m c main_v2) = wLo (m ((c : Thread nD τ).loc main_arg2)) := by
  rw [V_v2]
  exact funext fun j => slice_lo _ _ j

theorem v3_vec (c : Dev nD) : vecRow (V m c main_v3) = wHi (m ((c : Thread nD τ).loc main_arg2)) := by
  rw [V_v3]
  exact funext fun j => slice_hi _ _ j

/-! ## The results, from the region's arrays -/

theorem tail_v5 (c : Dev nD) :
    Pipeline.afterTail₀ cfgs (dats m) 0 (V0 m) [hostOps1] c main_v5
      = shapeCast S8x4096x1024 (GY (V m c main_v0) (V m c main_v1) (V m c main_v2) (V m c main_v3))
          Facts₀.shapeCasts_S32768x1024_S8x4096x1024 := by
  unfold Pipeline.afterTail₀
  show StableHlo.after hostOps1 _ (Proc.devRef .tc main_v5) = _
  after_results
  show shapeCast S8x4096x1024
      (Pipeline.withArrays spec0 c (V0 m c) (fun w => (dats m 0 c).arrAt w cfg0.N) (Proc.devRef .tc (Pipeline.arrRef spec0 4)))
      Facts₀.shapeCasts_S32768x1024_S8x4096x1024 = _
  rw [Pipeline.withArrays_arr spec0 launch0.win.arr_inj c (V0 m c) (fun w => (dats m 0 c).arrAt w cfg0.N) 4, final4]

theorem tail_v6 (c : Dev nD) :
    Pipeline.afterTail₀ cfgs (dats m) 0 (V0 m) [hostOps1] c main_v6
      = shapeCast S8x4096x1024 (GXA (V m c main_v0) (V m c main_v1) (V m c main_v2) (V m c main_v3))
          Facts₀.shapeCasts_S32768x1024_S8x4096x1024 := by
  unfold Pipeline.afterTail₀
  show StableHlo.after hostOps1 _ (Proc.devRef .tc main_v6) = _
  after_results
  show shapeCast S8x4096x1024
      (Pipeline.withArrays spec0 c (V0 m c) (fun w => (dats m 0 c).arrAt w cfg0.N) (Proc.devRef .tc (Pipeline.arrRef spec0 5)))
      Facts₀.shapeCasts_S32768x1024_S8x4096x1024 = _
  rw [Pipeline.withArrays_arr spec0 launch0.win.arr_inj c (V0 m c) (fun w => (dats m 0 c).arrAt w cfg0.N) 5, final5]

/-- The first result is the specification's token array. -/
theorem result_y (c : Dev nD) :
    shapeCast S8x4096x1024 (GY (V m c main_v0) (V m c main_v1) (V m c main_v2) (V m c main_v3))
        Facts₀.shapeCasts_S32768x1024_S8x4096x1024
      = outY (m ((c : Thread nD τ).loc main_arg0)) (m ((c : Thread nD τ).loc main_arg1)) (m ((c : Thread nD τ).loc main_arg2)) := by
  funext i
  obtain ⟨b, t, j, rfl⟩ : ∃ (b : Fin 8) (t : Fin 4096) (j : Fin 1024), i = ix3 b t j := ⟨i 0, i 1, i 2, eq_ix3 i⟩
  rw [shapeCast_apply _ _ (ix3 b t j) (ix2 (flatRow b t) j) (by
    rw [Shape.rowMajor_val_two, Shape.rowMajor_val_three]; rfl)]
  show (layer (vecRow (V m c main_v2)) (vecRow (V m c main_v3))
      (rowM (V m c main_v0) (flatRow b t), rowM (V m c main_v1) (flatRow b t))).1 j = _
  rw [v0_row, v1_row, v2_vec, v3_vec]
  rfl

/-- The second result is the specification's cache array. -/
theorem result_xa (c : Dev nD) :
    shapeCast S8x4096x1024 (GXA (V m c main_v0) (V m c main_v1) (V m c main_v2) (V m c main_v3))
        Facts₀.shapeCasts_S32768x1024_S8x4096x1024
      = outXA (m ((c : Thread nD τ).loc main_arg0)) (m ((c : Thread nD τ).loc main_arg1)) (m ((c : Thread nD τ).loc main_arg2)) := by
  funext i
  obtain ⟨b, t, j, rfl⟩ : ∃ (b : Fin 8) (t : Fin 4096) (j : Fin 1024), i = ix3 b t j := ⟨i 0, i 1, i 2, eq_ix3 i⟩
  rw [shapeCast_apply _ _ (ix3 b t j) (ix2 (flatRow b t) j) (by
    rw [Shape.rowMajor_val_two, Shape.rowMajor_val_three]; rfl)]
  show (layer (vecRow (V m c main_v2)) (vecRow (V m c main_v3))
      (rowM (V m c main_v0) (flatRow b t), rowM (V m c main_v1) (flatRow b t))).2 j = _
  rw [v0_row, v1_row, v2_vec, v3_vec]
  rfl

/-! ## The run -/

/-- Every weakly fair execution of the kernel program terminates with its two results at the specification's arrays
    of the arguments, and the arguments unchanged. -/
theorem run : θ_run defs (onTc (τ := τ) (main (F := Ideal))) ⟨m, fun _ => 0, ρ⟩ fun r => ∀ c : Dev nD,
      r.2.mem ((c.tc : Thread nD τ).loc main_v5)
        = outY (m ((c.tc : Thread nD τ).loc main_arg0)) (m ((c.tc : Thread nD τ).loc main_arg1)) (m ((c.tc : Thread nD τ).loc main_arg2))
      ∧ r.2.mem ((c.tc : Thread nD τ).loc main_v6)
        = outXA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans ((tail_v5 m c).trans (result_y m c)),
      ((h c).2 main_v6 (Pipeline.mem_restRefs_of main_v6 (by decide) (by decide))).trans ((tail_v6 m c).trans (result_xa m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelRun

end
-- ==== Proof.HostRound.lean ====
/-
  One round of the layer as the reference computes it on the whole [8, 4096, 1024] arrays, read row by row.

  The reference holds the array X of token rows and the array XA of cache rows, one row of 1024 per (batch, position),
  and the two weight vectors.  Its round is, on whole arrays:
    * `preH`   — X · w1 + XA · w2 with the weights spread over every row, viewed [8, 4096, 16, 64];
    * `expH`   — e^(P − M), M each head's shift spread over the head's lanes;
    * `yH`     — E over each head's sum of E, viewed [8, 4096, 1024] again;
    * `updH`   — κ · XA + γ · Y.
  Read at row (b, t) each is the row specification's step of that row alone: entry (b, t, h, l) of the four-axis view
  is entry (b, t, 64·h + l) of the three-axis one (same row-major order).  So the rows of the new pair of arrays are
  `RowSpec.round` of the rows of the old (`rows_step`).
-/
import proofs.«146273_j20358144983216_1_alg».proof.ReferenceIdeal
import proofs.«146273_j20358144983216_1_alg».proof.Proof.RowSpec
import proofs.«146273_j20358144983216_1_alg».proof.Proof.LibSoftmaxLast
import Idealize.ShloMosaic.PureOps.Ideal.Laws
import Idealize.ShloMosaic.Lib.ValueIdx
import Idealize.ShloMosaic.Lib.ValueLayout
import Idealize.ShloMosaic.Lib.Pipeline.Value

noncomputable section

namespace Cert.HostRound

open Idealize.ShloMosaic Idealize.ShloMosaic.ValueIdx Cert.ReferenceIdeal Cert.ReferenceIdeal.Facts₀ Cert.RowSpec
open Cert.Lib.SoftmaxLast

variable [Cert.ReferenceIdeal.Facts]

/-- An array of rows; its view by head and lane; a weight vector. -/
abbrev Arr := FVec Ideal S8x4096x1024 .f32
abbrev Hd := FVec Ideal S8x4096x16x64 .f32
abbrev Wt := FVec Ideal S1024 .f32

/-- Row (b, t) of an array. -/
def rowOf (X : Arr) (b : Fin 8) (t : Fin 4096) : Row := fun j => X (ix3 b t j)
/-- A weight vector as a row. -/
def vecRow (w : Wt) : Row := fun j => w (ix1 j)

/-- The reduction's shape fact in the form that names the inserted coordinate. -/
theorem hred : S8x4096x16x64.Reduces [3] S8x4096x16 := by decide

/-- A weight vector spread over every row: [1024] → [1, 1, 1024] → [8, 4096, 1024]. -/
def spreadW (w : Wt) : Arr :=
  broadcastInDim S8x4096x1024 ![0, 1, 2] bcast_S1x1x1024_S8x4096x1024_0_1_2
    (broadcastInDim S1x1x1024 ![2] bcast_S1024_S1x1x1024_2 w)

theorem spreadW_apply (w : Wt) (b : Fin 8) (t : Fin 4096) (j : Fin 1024) : spreadW w (ix3 b t j) = w (ix1 j) := by
  unfold spreadW
  rw [broadcastInDim_apply ![0, 1, 2] _ _ (ix3 b t j) (ix3 (0 : Fin 1) (0 : Fin 1) j) (fun a => by
      match a with
      | ⟨0, _⟩ => rfl
      | ⟨1, _⟩ => rfl
      | ⟨2, _⟩ => rfl)]
  exact broadcastInDim_apply ![2] _ w (ix3 (0 : Fin 1) (0 : Fin 1) j) (ix1 j) (fun a => by
      match a with
      | ⟨0, _⟩ => rfl)

/-- X · w1 + XA · w2, viewed by head and lane. -/
def preH (w1 w2 : Wt) (X XA : Arr) : Hd :=
  shapeCast S8x4096x16x64 (addf (mulf X (spreadW w1)) (mulf XA (spreadW w2))) shapeCasts_S8x4096x1024_S8x4096x16x64

theorem preH_apply (w1 w2 : Wt) (X XA : Arr) (b : Fin 8) (t : Fin 4096) (h : Fin 16) (l : Fin 64) :
    preH w1 w2 X XA (ix4 b t h l) = pre (vecRow w1) (vecRow w2) (rowOf X b t) (rowOf XA b t) (pos h l) := by
  unfold preH
  rw [shapeCast_apply _ _ (ix4 b t h l) (ix3 b t (pos h l)) (by
      rw [Shape.rowMajor_val_three, Shape.rowMajor_val_four]
      show (b.val * 4096 + t.val) * 1024 + (h.val * 64 + l.val) = ((b.val * 4096 + t.val) * 16 + h.val) * 64 + l.val
      omega)]
  rw [addf_apply, mulf_apply, mulf_apply, spreadW_apply, spreadW_apply]
  rfl

/-- Each head's shift, spread over its lanes. -/
def shiftH (P : Hd) : Hd :=
  hShift reducesTo_S8x4096x16x64_S8x4096x16_d3 h_S_ bcast_S_S8x4096x16 bcast_S8x4096x16_S8x4096x16x1_0_1_2
    bcast_S8x4096x16x1_S8x4096x16x64_0_1_2_3 0xFF800000#32 P

theorem shiftH_apply (P : Hd) (b : Fin 8) (t : Fin 4096) (h : Fin 16) (l : Fin 64) :
    shiftH P (ix4 b t h l) = shiftOf (fun q => P (ix4 b t h q)) negInf :=
  hShift_apply _ _ _ _ _ hred _ P b t h l

/-- e^(P − M). -/
def expH (P : Hd) : Hd := Host.exp (subf P (shiftH P))

theorem expH_apply (P : Hd) (b : Fin 8) (t : Fin 4096) (h : Fin 16) (l : Fin 64) :
    expH P (ix4 b t h l) = Ideal.exp (P (ix4 b t h l) - shiftOf (fun q => P (ix4 b t h q)) negInf) := by
  unfold expH
  show Ideal.exp (subf P (shiftH P) (ix4 b t h l)) = _
  rw [subf_apply, shiftH_apply]

/-- E over its head's sum, viewed as rows of 1024 again. -/
def yH (E : Hd) : Arr :=
  shapeCast S8x4096x1024
    (hNorm reducesTo_S8x4096x16x64_S8x4096x16_d3 h_S_ bcast_S8x4096x16_S8x4096x16x1_0_1_2
      bcast_S8x4096x16x1_S8x4096x16x64_0_1_2_3 E)
    shapeCasts_S8x4096x16x64_S8x4096x1024

theorem yH_apply (E : Hd) (b : Fin 8) (t : Fin 4096) (j : Fin 1024) :
    yH E (ix3 b t j) = Ideal.div (E (ix4 b t (headOf j) (laneOf j))) (∑ q : Fin 64, E (ix4 b t (headOf j) q)) := by
  unfold yH
  rw [shapeCast_apply _ _ (ix3 b t j) (ix4 b t (headOf j) (laneOf j)) (by
      rw [Shape.rowMajor_val_three, Shape.rowMajor_val_four]
      show ((b.val * 4096 + t.val) * 16 + j.val / 64) * 64 + j.val % 64 = (b.val * 4096 + t.val) * 1024 + j.val
      omega)]
  exact hNorm_apply _ _ _ _ hred E b t (headOf j) (laneOf j)

/-- κ · XA + γ · Y. -/
def updH (XA Y : Arr) : Arr :=
  addf (mulf (broadcastInDim S8x4096x1024 ![] bcast_S_S8x4096x1024 (constant (F := Ideal) S_ .f32 0x3F666666#32)) XA)
    (mulf (broadcastInDim S8x4096x1024 ![] bcast_S_S8x4096x1024 (constant (F := Ideal) S_ .f32 0x3DCCCCCD#32)) Y)

/-- The new token array and the new cache array of a round. -/
def yHost (w1 w2 : Wt) (X XA : Arr) : Arr := yH (expH (preH w1 w2 X XA))
def xaHost (w1 w2 : Wt) (X XA : Arr) : Arr := updH XA (yHost w1 w2 X XA)

theorem yHost_apply (w1 w2 : Wt) (X XA : Arr) (b : Fin 8) (t : Fin 4096) (j : Fin 1024) :
    yHost w1 w2 X XA (ix3 b t j) = soft (pre (vecRow w1) (vecRow w2) (rowOf X b t) (rowOf XA b t)) j := by
  unfold yHost
  rw [yH_apply]
  simp only [expH_apply, preH_apply]
  rfl

theorem xaHost_apply (w1 w2 : Wt) (X XA : Arr) (b : Fin 8) (t : Fin 4096) (j : Fin 1024) :
    xaHost w1 w2 X XA (ix3 b t j)
      = blend (rowOf XA b t) (soft (pre (vecRow w1) (vecRow w2) (rowOf X b t) (rowOf XA b t))) j := by
  unfold xaHost updH
  rw [addf_apply, mulf_apply, mulf_apply, scalar3_apply, scalar3_apply, yHost_apply]
  rfl

/-- THE ROUND, row by row: the rows of the new arrays are the row specification's round of the rows of the old. -/
theorem rows_step (w1 w2 : Wt) (X XA : Arr) (b : Fin 8) (t : Fin 4096) :
    (rowOf (yHost w1 w2 X XA) b t, rowOf (xaHost w1 w2 X XA) b t)
      = round (vecRow w1) (vecRow w2) (rowOf X b t, rowOf XA b t) :=
  Prod.ext (funext fun j => yHost_apply w1 w2 X XA b t j) (funext fun j => xaHost_apply w1 w2 X XA b t j)

end Cert.HostRound

end
-- ==== Proof.HostRun.lean ====
/-
  The reference's two results are the specification's `outY` and `outXA` of its three arguments.

  The reference's run ends with its results at nested terms of the arguments, named stage by stage.  Each stage is,
  by unfolding, one whole-array step of a round (`preH`, `expH`, `yH`, `updH`) of earlier stages (`res9` … `res91`),
  so the results are the token array and the cache array after four rounds `step` from the argument pair, with the
  two slices of the weight vector as weights.  Row by row four rounds are the row specification's `layer`
  (`rows_of_four`), and the slices' rows are the two halves of the weight vector: `ref_y`, `ref_xa`.
-/
import proofs.«146273_j20358144983216_1_alg».proof.Proof.Gen.ReferenceIdeal.Run
import proofs.«146273_j20358144983216_1_alg».proof.Proof.HostRound

noncomputable section

namespace Cert.HostRun

open Idealize.ShloMosaic Idealize.ShloMosaic.ValueIdx Cert.ReferenceIdeal Cert.ReferenceIdeal.Value
open Cert.RowSpec Cert.HostRound

/-- One round on a pair of arrays (token array, cache array). -/
def step (w1 w2 : Wt) (s : Arr × Arr) : Arr × Arr := (yHost w1 w2 s.1 s.2, xaHost w1 w2 s.1 s.2)

/-- Four rounds. -/
def four (w1 w2 : Wt) (s : Arr × Arr) : Arr × Arr := step w1 w2 (step w1 w2 (step w1 w2 (step w1 w2 s)))

theorem rows_of_step (w1 w2 : Wt) (s : Arr × Arr) (b : Fin 8) (t : Fin 4096) :
    (rowOf (step w1 w2 s).1 b t, rowOf (step w1 w2 s).2 b t)
      = round (vecRow w1) (vecRow w2) (rowOf s.1 b t, rowOf s.2 b t) :=
  rows_step w1 w2 s.1 s.2 b t

/-- Row (b, t) of the arrays after four rounds is the layer of row (b, t) of the arrays before. -/
theorem rows_of_four (w1 w2 : Wt) (s : Arr × Arr) (b : Fin 8) (t : Fin 4096) :
    (rowOf (four w1 w2 s).1 b t, rowOf (four w1 w2 s).2 b t)
      = layer (vecRow w1) (vecRow w2) (rowOf s.1 b t, rowOf s.2 b t) := by
  unfold four layer
  rw [rows_of_step, rows_of_step, rows_of_step, rows_of_step]

/-! ## The stages of the run -/

section Stages

variable (V0 : Valuation τ sig (Elt Ideal))

/-- The arguments as the run reads them. -/
abbrev X0 : Arr := V0 (Proc.devRef .tc main_arg0)
abbrev XA0 : Arr := V0 (Proc.devRef .tc main_arg1)
abbrev W0 : FVec Ideal S2048 .f32 := V0 (Proc.devRef .tc main_arg2)
/-- The two weight slices. -/
abbrev W1 : Wt := res_main_v0 V0
abbrev W2 : Wt := res_main_v1 V0

theorem res9 : res_main_v9 (F := Ideal) V0 = preH (W1 V0) (W2 V0) (X0 V0) (XA0 V0) := rfl
theorem res16 : res_main_v16 (F := Ideal) V0 = expH (res_main_v9 V0) := rfl
theorem res21 : res_main_v21 (F := Ideal) V0 = yH (res_main_v16 V0) := rfl
theorem res26 : res_main_v26 (F := Ideal) V0 = updH (XA0 V0) (res_main_v21 V0) := rfl
theorem res34 : res_main_v34 (F := Ideal) V0 = preH (W1 V0) (W2 V0) (res_main_v21 V0) (res_main_v26 V0) := rfl
theorem res41 : res_main_v41 (F := Ideal) V0 = expH (res_main_v34 V0) := rfl
theorem res46 : res_main_v46 (F := Ideal) V0 = yH (res_main_v41 V0) := rfl
theorem res51 : res_main_v51 (F := Ideal) V0 = updH (res_main_v26 V0) (res_main_v46 V0) := rfl
theorem res59 : res_main_v59 (F := Ideal) V0 = preH (W1 V0) (W2 V0) (res_main_v46 V0) (res_main_v51 V0) := rfl
theorem res66 : res_main_v66 (F := Ideal) V0 = expH (res_main_v59 V0) := rfl
theorem res71 : res_main_v71 (F := Ideal) V0 = yH (res_main_v66 V0) := rfl
theorem res76 : res_main_v76 (F := Ideal) V0 = updH (res_main_v51 V0) (res_main_v71 V0) := rfl
theorem res84 : res_main_v84 (F := Ideal) V0 = preH (W1 V0) (W2 V0) (res_main_v71 V0) (res_main_v76 V0) := rfl
theorem res91 : res_main_v91 (F := Ideal) V0 = expH (res_main_v84 V0) := rfl

/-- The first result's term: the token array after four rounds. -/
theorem result_y : yH (res_main_v91 (F := Ideal) V0) = (four (W1 V0) (W2 V0) (X0 V0, XA0 V0)).1 := by
  simp only [res91, res84, res76, res71, res66, res59, res51, res46, res41, res34, res26, res21, res16, res9]
  rfl

/-- The second result's term: the cache array after four rounds. -/
theorem result_xa : updH (res_main_v76 (F := Ideal) V0) (yH (res_main_v91 (F := Ideal) V0))
    = (four (W1 V0) (W2 V0) (X0 V0, XA0 V0)).2 := by
  simp only [res91, res84, res76, res71, res66, res59, res51, res46, res41, res34, res26, res21, res16, res9]
  rfl

/-- The slices' rows are the halves of the weight vector. -/
theorem w1_row : vecRow (W1 V0) = wLo (W0 V0) := funext fun j => slice_lo (W0 V0) Facts₀.slices_S2048_S1024_0 j
theorem w2_row : vecRow (W2 V0) = wHi (W0 V0) := funext fun j => slice_hi (W0 V0) Facts₀.slices_S2048_S1024_1024 j

/-- THE REFERENCE'S FIRST RESULT is the specification's token array. -/
theorem ref_y : yH (res_main_v91 (F := Ideal) V0) = outY (X0 V0) (XA0 V0) (W0 V0) := by
  rw [result_y]
  funext i
  obtain ⟨b, t, j, rfl⟩ : ∃ (b : Fin 8) (t : Fin 4096) (j : Fin 1024), i = ix3 b t j := ⟨i 0, i 1, i 2, eq_ix3 i⟩
  have h := rows_of_four (W1 V0) (W2 V0) (X0 V0, XA0 V0) b t
  rw [w1_row, w2_row] at h
  exact congrFun (congrArg Prod.fst h) j

/-- THE REFERENCE'S SECOND RESULT is the specification's cache array. -/
theorem ref_xa : updH (res_main_v76 (F := Ideal) V0) (yH (res_main_v91 (F := Ideal) V0)) = outXA (X0 V0) (XA0 V0) (W0 V0) := by
  rw [result_xa]
  funext i
  obtain ⟨b, t, j, rfl⟩ : ∃ (b : Fin 8) (t : Fin 4096) (j : Fin 1024), i = ix3 b t j := ⟨i 0, i 1, i 2, eq_ix3 i⟩
  have h := rows_of_four (W1 V0) (W2 V0) (X0 V0, XA0 V0) b t
  rw [w1_row, w2_row] at h
  exact congrFun (congrArg Prod.snd h) j

end Stages

end Cert.HostRun

end
-- ==== Proof.lean ====
/-
  The kernel and its reference compute the same two arrays, as extended reals, from any arguments.

  The layer: each token row x and its cache row xa (1024 entries, read as 16 heads of 64 lanes) go through four
  rounds of   p = x · w1 + xa · w2;   y = per-head softmax of p, shifted by the head's maximum;   xa ← κ · xa + γ · y;
  x ← y,   with w1, w2 the two halves of the weight vector and κ, γ two f32 constants.  The results are the token
  rows and the cache rows after the fourth round (RowSpec: `layer`, `outY`, `outXA`).

  * The kernel walks the rows in 64 blocks of 512, runs the four rounds on a block at a time, and re-lays the arrays
    before and after (KernelRound, KernelBody, KernelArray, KernelRun): its results are `outY` and `outXA`.
  * The reference runs each round on the whole arrays (HostRound, HostRun): its results are `outY` and `outXA`.
  Both spell the softmax the same way — maximum from −∞, subtract, exponential, sum from 0, divide — so the two sides
  meet term for term and no law of arithmetic is needed; in particular nothing is asked of the inputs, and the
  equality holds at infinite entries too.  The idealization rewrote no operation, so there is nothing to preserve.
-/
import proofs.«146273_j20358144983216_1_alg».proof.Defs
import proofs.«146273_j20358144983216_1_alg».proof.Proof.Gen.Kernel
import proofs.«146273_j20358144983216_1_alg».proof.Proof.Gen.Kernel.Skeleton
import proofs.«146273_j20358144983216_1_alg».proof.Proof.Gen.Kernel.Launch
import proofs.«146273_j20358144983216_1_alg».proof.Proof.Gen.Kernel.Points
import proofs.«146273_j20358144983216_1_alg».proof.Proof.Gen.Kernel.Frame
import proofs.«146273_j20358144983216_1_alg».proof.Proof.Gen.KernelIdeal
import proofs.«146273_j20358144983216_1_alg».proof.Proof.Gen.KernelIdeal.Skeleton
import proofs.«146273_j20358144983216_1_alg».proof.Proof.Gen.KernelIdeal.Launch
import proofs.«146273_j20358144983216_1_alg».proof.Proof.Gen.KernelIdeal.Points
import proofs.«146273_j20358144983216_1_alg».proof.Proof.Gen.KernelIdeal.Frame
import proofs.«146273_j20358144983216_1_alg».proof.Proof.Gen.ReferenceIdeal
import proofs.«146273_j20358144983216_1_alg».proof.Proof.Gen.Pre_finite_inputs
import proofs.«146273_j20358144983216_1_alg».proof.Proof.Gen.ReferenceIdeal.Run
import proofs.«146273_j20358144983216_1_alg».proof.Proof.KernelRun
import proofs.«146273_j20358144983216_1_alg».proof.Proof.HostRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs, from memories that agree on the three arguments, end with the token rows and the cache rows after the
    layer: the kernel's run and the reference's run both end at the specification's arrays of the arguments. -/
theorem algebraic : Cert.algebraic_KernelIdeal_ReferenceIdeal := by
  intro m ρ m' ρ' _ hagree
  refine ⟨fun c => Cert.RowSpec.outY
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => Cert.RowSpec.outXA
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelRun.run m ρ, ?_⟩
  refine (θ_run Cert.ReferenceIdeal.defs _ _).mono (fun _ h c => ?_) (Cert.ReferenceIdeal.Value.run (F := Ideal) m' ρ')
  obtain ⟨h1, h2, h3⟩ := h c
  refine ⟨h1.trans ?_, h2.trans ?_, h3⟩
  · beta_reduce
    rw [← (hagree c).1, ← (hagree c).2.1, ← (hagree c).2.2]
    exact Cert.HostRun.ref_y (StableHlo.launchContents m' c)
  · beta_reduce
    rw [← (hagree c).1, ← (hagree c).2.1, ← (hagree c).2.2]
    exact Cert.HostRun.ref_xa (StableHlo.launchContents m' c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
